-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x50 : Shape := ⟨2, ![100000, 50]⟩
abbrev S2x6400000 : Shape := ⟨2, ![2, 6400000]⟩
abbrev S50x30 : Shape := ⟨2, ![50, 30]⟩
abbrev S30 : Shape := ⟨1, ![30]⟩
abbrev S30x25 : Shape := ⟨2, ![30, 25]⟩
abbrev S25 : Shape := ⟨1, ![25]⟩
abbrev S_ : Shape := ⟨0, ![]⟩

class Facts : Prop where
  bcast_S_S100000x50 : S_.BroadcastsInDim S100000x50 (![] : Fin 0 → Fin S100000x50.rank)
  reducesTo_S100000x50_S_d0_1 : S100000x50.ReducesTo [0, 1] S_
  h_S_ : 0 < S_.numel
  bcast_S_S50x30 : S_.BroadcastsInDim S50x30 (![] : Fin 0 → Fin S50x30.rank)
  reducesTo_S50x30_S_d0_1 : S50x30.ReducesTo [0, 1] S_
  bcast_S_S30 : S_.BroadcastsInDim S30 (![] : Fin 0 → Fin S30.rank)
  reducesTo_S30_S_d0 : S30.ReducesTo [0] S_
  bcast_S_S30x25 : S_.BroadcastsInDim S30x25 (![] : Fin 0 → Fin S30x25.rank)
  reducesTo_S30x25_S_d0_1 : S30x25.ReducesTo [0, 1] S_
  bcast_S_S25 : S_.BroadcastsInDim S25 (![] : Fin 0 → Fin S25.rank)
  reducesTo_S25_S_d0 : S25.ReducesTo [0] S_

variable [Facts]

def fn_part1 {F : FTy → Type} [FloatOps F] (main_arg5 : FVec F S25 .f32) (main_v13 : IVec S_ 1) (main_v16 : IVec S30x25 1) : IVec S_ 1 :=
  let main_c_5 : IVec S_ 1 := constantI S_ 1 1#1
  let main_v17 : IVec S_ 1 := (fun x v => Host.reduce IntOp.andi x v reducesTo_S30x25_S_d0_1 h_S_) main_v16 main_c_5
  let main_v18 : IVec S_ 1 := andi main_v13 main_v17
  let main_v19 : FVec F S25 .f32 := Host.absf main_arg5
  let main_cst_6 : FVec F S_ .f32 := constant S_ .f32 0x7F800000#32
  let main_v20 : FVec F S25 .f32 := broadcastInDim S25 ![] bcast_S_S25 main_cst_6
  let main_v21 : IVec S25 1 := cmpf .olt main_v19 main_v20
  let main_c_7 : IVec S_ 1 := constantI S_ 1 1#1
  let main_v22 : IVec S_ 1 := (fun x v => Host.reduce IntOp.andi x v reducesTo_S25_S_d0 h_S_) main_v21 main_c_7
  let main_v23 : IVec S_ 1 := andi main_v18 main_v22
  main_v23

def fn {F : FTy → Type} [FloatOps F] (main_arg0 : FVec F S100000x50 .f32) (main_arg1 : IVec S2x6400000 32) (main_arg2 : FVec F S50x30 .f32) (main_arg3 : FVec F S30 .f32) (main_arg4 : FVec F S30x25 .f32) (main_arg5 : FVec F S25 .f32) : IVec S_ 1 :=
  let main_v0 : FVec F S100000x50 .f32 := Host.absf main_arg0
  let main_cst : FVec F S_ .f32 := constant S_ .f32 0x7F800000#32
  let main_v1 : FVec F S100000x50 .f32 := broadcastInDim S100000x50 ![] bcast_S_S100000x50 main_cst
  let main_v2 : IVec S100000x50 1 := cmpf .olt main_v0 main_v1
  let main_c : IVec S_ 1 := constantI S_ 1 1#1
  let main_v3 : IVec S_ 1 := (fun x v => Host.reduce IntOp.andi x v reducesTo_S100000x50_S_d0_1 h_S_) main_v2 main_c
  let main_v4 : FVec F S50x30 .f32 := Host.absf main_arg2
  let main_cst_0 : FVec F S_ .f32 := constant S_ .f32 0x7F800000#32
  let main_v5 : FVec F S50x30 .f32 := broadcastInDim S50x30 ![] bcast_S_S50x30 main_cst_0
  let main_v6 : IVec S50x30 1 := cmpf .olt main_v4 main_v5
  let main_c_1 : IVec S_ 1 := constantI S_ 1 1#1
  let main_v7 : IVec S_ 1 := (fun x v => Host.reduce IntOp.andi x v reducesTo_S50x30_S_d0_1 h_S_) main_v6 main_c_1
  let main_v8 : IVec S_ 1 := andi main_v3 main_v7
  let main_v9 : FVec F S30 .f32 := Host.absf main_arg3
  let main_cst_2 : FVec F S_ .f32 := constant S_ .f32 0x7F800000#32
  let main_v10 : FVec F S30 .f32 := broadcastInDim S30 ![] bcast_S_S30 main_cst_2
  let main_v11 : IVec S30 1 := cmpf .olt main_v9 main_v10
  let main_c_3 : IVec S_ 1 := constantI S_ 1 1#1
  let main_v12 : IVec S_ 1 := (fun x v => Host.reduce IntOp.andi x v reducesTo_S30_S_d0 h_S_) main_v11 main_c_3
  let main_v13 : IVec S_ 1 := andi main_v8 main_v12
  let main_v14 : FVec F S30x25 .f32 := Host.absf main_arg4
  let main_cst_4 : FVec F S_ .f32 := constant S_ .f32 0x7F800000#32
  let main_v15 : FVec F S30x25 .f32 := broadcastInDim S30x25 ![] bcast_S_S30x25 main_cst_4
  let main_v16 : IVec S30x25 1 := cmpf .olt main_v14 main_v15
  fn_part1 (F := F) main_arg5 main_v13 main_v16
-- ==== Kernel.lean ====
abbrev S100000x50 : Shape := ⟨2, ![100000, 50]⟩
abbrev S2x6400000 : Shape := ⟨2, ![2, 6400000]⟩
abbrev S50x30 : Shape := ⟨2, ![50, 30]⟩
abbrev S30 : Shape := ⟨1, ![30]⟩
abbrev S30x25 : Shape := ⟨2, ![30, 25]⟩
abbrev S25 : Shape := ⟨1, ![25]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x30 : Shape := ⟨2, ![100000, 30]⟩
abbrev S5000x50 : Shape := ⟨2, ![5000, 50]⟩
abbrev S5000x30 : Shape := ⟨2, ![5000, 30]⟩
abbrev S6500000x30 : Shape := ⟨2, ![6500000, 30]⟩
abbrev S1x30 : Shape := ⟨2, ![1, 30]⟩
abbrev S100000x25 : Shape := ⟨2, ![100000, 25]⟩
abbrev S5000x25 : Shape := ⟨2, ![5000, 25]⟩
abbrev S6500000x25 : Shape := ⟨2, ![6500000, 25]⟩
abbrev S1x25 : Shape := ⟨2, ![1, 25]⟩

abbrev nBuf : Space → Nat
  | .hbm => 76
  | .vmem => 16
  | .smem => 0
  | _ => 0

abbrev bufTy : (tb : Table) → Fin (tcTables nBuf tb) → BufTy
  | .hbm, ⟨0, _⟩ => ⟨S100000x50, .f32⟩
  | .hbm, ⟨1, _⟩ => ⟨S2x6400000, .i32⟩
  | .hbm, ⟨2, _⟩ => ⟨S50x30, .f32⟩
  | .hbm, ⟨3, _⟩ => ⟨S30, .f32⟩
  | .hbm, ⟨4, _⟩ => ⟨S30x25, .f32⟩
  | .hbm, ⟨5, _⟩ => ⟨S25, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S6500000, .i32⟩
  | .hbm, ⟨22, _⟩ => ⟨S6500000, .i1⟩
  | .hbm, ⟨23, _⟩ => ⟨S_, .i32⟩
  | .hbm, ⟨24, _⟩ => ⟨S6500000, .i32⟩
  | .hbm, ⟨25, _⟩ => ⟨S6500000, .i32⟩
  | .hbm, ⟨26, _⟩ => ⟨S6500000, .i32⟩
  | .hbm, ⟨27, _⟩ => ⟨S6500000x1, .i32⟩
  | .hbm, ⟨28, _⟩ => ⟨S6500000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S6500000, .f32⟩
  | .hbm, ⟨39, _⟩ => ⟨S100000x30, .f32⟩
  | .hbm, ⟨40, _⟩ => ⟨S6500000x1, .f32⟩
  | .hbm, ⟨41, _⟩ => ⟨S_, .i32⟩
  | .hbm, ⟨42, _⟩ => ⟨S6500000, .i32⟩
  | .hbm, ⟨43, _⟩ => ⟨S6500000, .i1⟩
  | .hbm, ⟨44, _⟩ => ⟨S_, .i32⟩
  | .hbm, ⟨45, _⟩ => ⟨S6500000, .i32⟩
  | .hbm, ⟨46, _⟩ => ⟨S6500000, .i32⟩
  | .hbm, ⟨47, _⟩ => ⟨S6500000, .i32⟩
  | .hbm, ⟨48, _⟩ => ⟨S6500000x1, .i32⟩
  | .hbm, ⟨49, _⟩ => ⟨S6500000x30, .f32⟩
  | .hbm, ⟨50, _⟩ => ⟨S6500000x30, .f32⟩
  | .hbm, ⟨51, _⟩ => ⟨S6500000x30, .f32⟩
  | .hbm, ⟨52, _⟩ => ⟨S_, .f32⟩
  | .hbm, ⟨53, _⟩ => ⟨S100000x30, .f32⟩
  | .hbm, ⟨54, _⟩ => ⟨S6500000x1, .i32⟩
  | .hbm, ⟨55, _⟩ => ⟨S100000x30, .f32⟩
  | .hbm, ⟨56, _⟩ => ⟨S1x30, .f32⟩
  | .hbm, ⟨57, _⟩ => ⟨S100000x25, .f32⟩
  | .hbm, ⟨58, _⟩ => ⟨S6500000x1, .f32⟩
  | .hbm, ⟨59, _⟩ => ⟨S_, .i32⟩
  | .hbm, ⟨60, _⟩ => ⟨S6500000, .i32⟩
  | .hbm, ⟨61, _⟩ => ⟨S6500000, .i1⟩
  | .hbm, ⟨62, _⟩ => ⟨S_, .i32⟩
  | .hbm, ⟨63, _⟩ => ⟨S6500000, .i32⟩
  | .hbm, ⟨64, _⟩ => ⟨S6500000, .i32⟩
  | .hbm, ⟨65, _⟩ => ⟨S6500000, .i32⟩
  | .hbm, ⟨66, _⟩ => ⟨S6500000x1, .i32⟩
  | .hbm, ⟨67, _⟩ => ⟨S6500000x25, .f32⟩
  | .hbm, ⟨68, _⟩ => ⟨S6500000x25, .f32⟩
  | .hbm, ⟨69, _⟩ => ⟨S6500000x25, .f32⟩
  | .hbm, ⟨70, _⟩ => ⟨S_, .f32⟩
  | .hbm, ⟨71, _⟩ => ⟨S100000x25, .f32⟩
  | .hbm, ⟨72, _⟩ => ⟨S6500000x1, .i32⟩
  | .hbm, ⟨73, _⟩ => ⟨S100000x25, .f32⟩
  | .hbm, ⟨74, _⟩ => ⟨S1x25, .f32⟩
  | .hbm, ⟨75, _⟩ => ⟨S100000x25, .f32⟩
  | .local _ .vmem, ⟨0, _⟩ => ⟨S5000x50, .f32⟩
  | .local _ .vmem, ⟨1, _⟩ => ⟨S5000x50, .f32⟩
  | .local _ .vmem, ⟨2, _⟩ => ⟨S50x30, .f32⟩
  | .local _ .vmem, ⟨3, _⟩ => ⟨S5000x30, .f32⟩
  | .local _ .vmem, ⟨4, _⟩ => ⟨S5000x30, .f32⟩
  | .local _ .vmem, ⟨5, _⟩ => ⟨S5000x30, .f32⟩
  | .local _ .vmem, ⟨6, _⟩ => ⟨S5000x30, .f32⟩
  | .local _ .vmem, ⟨7, _⟩ => ⟨S1x30, .f32⟩
  | .local _ .vmem, ⟨8, _⟩ => ⟨S30x25, .f32⟩
  | .local _ .vmem, ⟨9, _⟩ => ⟨S5000x25, .f32⟩
  | .local _ .vmem, ⟨10, _⟩ => ⟨S5000x25, .f32⟩
  | .local _ .vmem, ⟨11, _⟩ => ⟨S5000x25, .f32⟩
  | .local _ .vmem, ⟨12, _⟩ => ⟨S5000x25, .f32⟩
  | .local _ .vmem, ⟨13, _⟩ => ⟨S1x25, .f32⟩
  | .local _ .vmem, ⟨14, _⟩ => ⟨S5000x25, .f32⟩
  | .local _ .vmem, ⟨15, _⟩ => ⟨S5000x25, .f32⟩
  | _, _ => ⟨S100000x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x50 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x30 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x30 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S30x25 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x25 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x25 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x25 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x25 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S5000x50_S5000x50_0_0 : ∀ a, (![0, 0] : Fin 2 → Nat) a + S5000x50.size a ≤ S5000x50.size a
  h_S5000x50 : 0 < S5000x50.numel
  bitsLt_bf16_f32 : FTy.bits .bf16 < FTy.bits .f32
  inb_S50x30_S50x30_0_0 : ∀ a, (![0, 0] : Fin 2 → Nat) a + S50x30.size a ≤ S50x30.size a
  h_S50x30 : 0 < S50x30.numel
  inb_S5000x30_S5000x30_0_0 : ∀ a, (![0, 0] : Fin 2 → Nat) a + S5000x30.size a ≤ S5000x30.size a
  h_S5000x30 : 0 < S5000x30.numel
  bcast_S6500000x1_S6500000x30_0_1 : S6500000x1.BroadcastsInDim S6500000x30 (![0, 1] : Fin 2 → Fin S6500000x30.rank)
  bcast_S_S100000x30 : S_.BroadcastsInDim S100000x30 (![] : Fin 0 → Fin S100000x30.rank)
  shapeCasts_S30_S1x30 : S30.ShapeCasts S1x30
  shapeCasts_S5000x30_S5000x30 : S5000x30.ShapeCasts S5000x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S5000x30 : S1x30.Broadcasts S5000x30
  inb_S30x25_S30x25_0_0 : ∀ a, (![0, 0] : Fin 2 → Nat) a + S30x25.size a ≤ S30x25.size a
  h_S30x25 : 0 < S30x25.numel
  inb_S5000x25_S5000x25_0_0 : ∀ a, (![0, 0] : Fin 2 → Nat) a + S5000x25.size a ≤ S5000x25.size a
  h_S5000x25 : 0 < S5000x25.numel
  bcast_S6500000x1_S6500000x25_0_1 : S6500000x1.BroadcastsInDim S6500000x25 (![0, 1] : Fin 2 → Fin S6500000x25.rank)
  bcast_S_S100000x25 : S_.BroadcastsInDim S100000x25 (![] : Fin 0 → Fin S100000x25.rank)
  shapeCasts_S25_S1x25 : S25.ShapeCasts S1x25
  shapeCasts_S5000x25_S5000x25 : S5000x25.ShapeCasts S5000x25
  inb_S1x25_S1x25_0_0 : ∀ a, (![0, 0] : Fin 2 → Nat) a + S1x25.size a ≤ S1x25.size a
  h_S1x25 : 0 < S1x25.numel
  shapeCasts_S1x25_S1x25 : S1x25.ShapeCasts S1x25
  broadcasts_S1x25_S5000x25 : S1x25.Broadcasts S5000x25
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S5000x50_S50x30_S5000x30_1_0_0_1_n_n_wf : DotDims.WF S5000x50 S50x30 S5000x30 [1] [0] [0] [1] [] []
  gather_S100000x30_S6500000x1_S6500000x30_1_0_n_n_0_1_130_wf : GatherDims.WF S100000x30 S6500000x1 S6500000x30 [1] [0] [] [0] [] 1 ![1, 30]
  scatter_S100000x30_S6500000x1_S6500000x30_1_0_0_1_wf : ScatterDims.WF S100000x30 S6500000x1 S6500000x30 [1] [0] [0] 1
  dot_S5000x30_S30x25_S5000x25_1_0_0_1_n_n_wf : DotDims.WF S5000x30 S30x25 S5000x25 [1] [0] [0] [1] [] []
  gather_S100000x25_S6500000x1_S6500000x25_1_0_n_n_0_1_125_wf : GatherDims.WF S100000x25 S6500000x1 S6500000x25 [1] [0] [] [0] [] 1 ![1, 25]
  scatter_S100000x25_S6500000x1_S6500000x25_1_0_0_1_wf : ScatterDims.WF S100000x25 S6500000x1 S6500000x25 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x50.size a ≤ S100000x50.size a
  hwx0_0 : ∀ i : grid0.Coords, EltTy.bits .f32 = 32 ∨ (Rect.block (s := S100000x50) S5000x50.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x30.size a ≤ S50x30.size a
  hwx0_1 : ∀ i : grid0.Coords, EltTy.bits .f32 = 32 ∨ (Rect.block (s := S50x30) S50x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x30.size a ≤ S100000x30.size a
  hwx0_2 : ∀ i : grid0.Coords, EltTy.bits .f32 = 32 ∨ (Rect.block (s := S100000x30) S5000x30.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x30.size a ≤ S100000x30.size a
  hwx1_0 : ∀ i : grid1.Coords, EltTy.bits .f32 = 32 ∨ (Rect.block (s := S100000x30) S5000x30.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x30.size a ≤ S1x30.size a
  hwx1_1 : ∀ i : grid1.Coords, EltTy.bits .f32 = 32 ∨ (Rect.block (s := S1x30) S1x30.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S30x25.size a ≤ S30x25.size a
  hwx1_2 : ∀ i : grid1.Coords, EltTy.bits .f32 = 32 ∨ (Rect.block (s := S30x25) S30x25.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x25.size a ≤ S100000x25.size a
  hwx1_3 : ∀ i : grid1.Coords, EltTy.bits .f32 = 32 ∨ (Rect.block (s := S100000x25) S5000x25.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x25.size a ≤ S100000x25.size a
  hwx2_0 : ∀ i : grid2.Coords, EltTy.bits .f32 = 32 ∨ (Rect.block (s := S100000x25) S5000x25.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x25.size a ≤ S1x25.size a
  hwx2_1 : ∀ i : grid2.Coords, EltTy.bits .f32 = 32 ∨ (Rect.block (s := S1x25) S1x25.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x25.size a ≤ S100000x25.size a
  hwx2_2 : ∀ i : grid2.Coords, EltTy.bits .f32 = 32 ∨ (Rect.block (s := S100000x25) S5000x25.size (cc2_transform_2 i) (hinb2_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S5000x50_S50x30_S5000x30_1_0_0_1_n_n : DotDims S5000x50 S50x30 S5000x30 where
  lhsContracting := [1]
  rhsContracting := [0]
  lhsNonContracting := [0]
  rhsNonContracting := [1]
  lhsBatch := []
  rhsBatch := []
  wf := dot_S5000x50_S50x30_S5000x30_1_0_0_1_n_n_wf
def gather_S100000x30_S6500000x1_S6500000x30_1_0_n_n_0_1_130 : GatherDims S100000x30 S6500000x1 S6500000x30 where
  offsetDims := [1]
  collapsedSliceDims := [0]
  operandBatchingDims := []
  startIndicesBatchingDims := []
  startIndexMap := [0]
  indexVectorDim := 1
  sliceSizes := ![1, 30]
  wf := gather_S100000x30_S6500000x1_S6500000x30_1_0_n_n_0_1_130_wf
def scatter_S100000x30_S6500000x1_S6500000x30_1_0_0_1 : ScatterDims S100000x30 S6500000x1 S6500000x30 where
  updateWindowDims := [1]
  insertedWindowDims := [0]
  scatterDimsToOperandDims := [0]
  indexVectorDim := 1
  wf := scatter_S100000x30_S6500000x1_S6500000x30_1_0_0_1_wf
def dot_S5000x30_S30x25_S5000x25_1_0_0_1_n_n : DotDims S5000x30 S30x25 S5000x25 where
  lhsContracting := [1]
  rhsContracting := [0]
  lhsNonContracting := [0]
  rhsNonContracting := [1]
  lhsBatch := []
  rhsBatch := []
  wf := dot_S5000x30_S30x25_S5000x25_1_0_0_1_n_n_wf
def gather_S100000x25_S6500000x1_S6500000x25_1_0_n_n_0_1_125 : GatherDims S100000x25 S6500000x1 S6500000x25 where
  offsetDims := [1]
  collapsedSliceDims := [0]
  operandBatchingDims := []
  startIndicesBatchingDims := []
  startIndexMap := [0]
  indexVectorDim := 1
  sliceSizes := ![1, 25]
  wf := gather_S100000x25_S6500000x1_S6500000x25_1_0_n_n_0_1_125_wf
def scatter_S100000x25_S6500000x1_S6500000x25_1_0_0_1 : ScatterDims S100000x25 S6500000x1 S6500000x25 where
  updateWindowDims := [1]
  insertedWindowDims := [0]
  scatterDimsToOperandDims := [0]
  indexVectorDim := 1
  wf := scatter_S100000x25_S6500000x1_S6500000x25_1_0_0_1_wf

abbrev win0_0 : Pipeline.Window sig grid0 :=
  Pipeline.Window.ofSpec (Memref.whole main_arg0) S5000x50.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S50x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x30.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x30.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x30.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S30x25.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x25.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x25.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x25.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S5000x25.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x50 : Shape := ⟨2, ![100000, 50]⟩
abbrev S2x6400000 : Shape := ⟨2, ![2, 6400000]⟩
abbrev S50x30 : Shape := ⟨2, ![50, 30]⟩
abbrev S30 : Shape := ⟨1, ![30]⟩
abbrev S30x25 : Shape := ⟨2, ![30, 25]⟩
abbrev S25 : Shape := ⟨1, ![25]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x30 : Shape := ⟨2, ![100000, 30]⟩
abbrev S6500000x30 : Shape := ⟨2, ![6500000, 30]⟩
abbrev S1x30 : Shape := ⟨2, ![1, 30]⟩
abbrev S100000x25 : Shape := ⟨2, ![100000, 25]⟩
abbrev S6500000x25 : Shape := ⟨2, ![6500000, 25]⟩
abbrev S1x25 : Shape := ⟨2, ![1, 25]⟩

abbrev nBuf : Space → Nat
  | .hbm => 82
  | .vmem => 0
  | .smem => 0
  | _ => 0

abbrev bufTy : (tb : Table) → Fin (tcTables nBuf tb) → BufTy
  | .hbm, ⟨0, _⟩ => ⟨S100000x50, .f32⟩
  | .hbm, ⟨1, _⟩ => ⟨S2x6400000, .i32⟩
  | .hbm, ⟨2, _⟩ => ⟨S50x30, .f32⟩
  | .hbm, ⟨3, _⟩ => ⟨S30, .f32⟩
  | .hbm, ⟨4, _⟩ => ⟨S30x25, .f32⟩
  | .hbm, ⟨5, _⟩ => ⟨S25, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S6500000, .i32⟩
  | .hbm, ⟨22, _⟩ => ⟨S6500000, .i1⟩
  | .hbm, ⟨23, _⟩ => ⟨S_, .i32⟩
  | .hbm, ⟨24, _⟩ => ⟨S6500000, .i32⟩
  | .hbm, ⟨25, _⟩ => ⟨S6500000, .i32⟩
  | .hbm, ⟨26, _⟩ => ⟨S6500000, .i32⟩
  | .hbm, ⟨27, _⟩ => ⟨S6500000x1, .i32⟩
  | .hbm, ⟨28, _⟩ => ⟨S6500000, .f32⟩
  | .hbm, ⟨29, _⟩ => ⟨S_, .i32⟩
  | .hbm, ⟨30, _⟩ => ⟨S6500000, .i32⟩
  | .hbm, ⟨31, _⟩ => ⟨S6500000, .i1⟩
  | .hbm, ⟨32, _⟩ => ⟨S_, .i32⟩
  | .hbm, ⟨33, _⟩ => ⟨S6500000, .i32⟩
  | .hbm, ⟨34, _⟩ => ⟨S6500000, .i32⟩
  | .hbm, ⟨35, _⟩ => ⟨S6500000, .i32⟩
  | .hbm, ⟨36, _⟩ => ⟨S6500000x1, .i32⟩
  | .hbm, ⟨37, _⟩ => ⟨S6500000, .f32⟩
  | .hbm, ⟨38, _⟩ => ⟨S6500000, .f32⟩
  | .hbm, ⟨39, _⟩ => ⟨S100000x30, .f32⟩
  | .hbm, ⟨40, _⟩ => ⟨S6500000x1, .f32⟩
  | .hbm, ⟨41, _⟩ => ⟨S_, .i32⟩
  | .hbm, ⟨42, _⟩ => ⟨S6500000, .i32⟩
  | .hbm, ⟨43, _⟩ => ⟨S6500000, .i1⟩
  | .hbm, ⟨44, _⟩ => ⟨S_, .i32⟩
  | .hbm, ⟨45, _⟩ => ⟨S6500000, .i32⟩
  | .hbm, ⟨46, _⟩ => ⟨S6500000, .i32⟩
  | .hbm, ⟨47, _⟩ => ⟨S6500000, .i32⟩
  | .hbm, ⟨48, _⟩ => ⟨S6500000x1, .i32⟩
  | .hbm, ⟨49, _⟩ => ⟨S6500000x30, .f32⟩
  | .hbm, ⟨50, _⟩ => ⟨S6500000x30, .f32⟩
  | .hbm, ⟨51, _⟩ => ⟨S6500000x30, .f32⟩
  | .hbm, ⟨52, _⟩ => ⟨S_, .f32⟩
  | .hbm, ⟨53, _⟩ => ⟨S100000x30, .f32⟩
  | .hbm, ⟨54, _⟩ => ⟨S6500000x1, .i32⟩
  | .hbm, ⟨55, _⟩ => ⟨S100000x30, .f32⟩
  | .hbm, ⟨56, _⟩ => ⟨S1x30, .f32⟩
  | .hbm, ⟨57, _⟩ => ⟨S100000x30, .f32⟩
  | .hbm, ⟨58, _⟩ => ⟨S100000x30, .f32⟩
  | .hbm, ⟨59, _⟩ => ⟨S_, .f32⟩
  | .hbm, ⟨60, _⟩ => ⟨S100000x30, .f32⟩
  | .hbm, ⟨61, _⟩ => ⟨S100000x30, .f32⟩
  | .hbm, ⟨62, _⟩ => ⟨S100000x25, .f32⟩
  | .hbm, ⟨63, _⟩ => ⟨S6500000x1, .f32⟩
  | .hbm, ⟨64, _⟩ => ⟨S_, .i32⟩
  | .hbm, ⟨65, _⟩ => ⟨S6500000, .i32⟩
  | .hbm, ⟨66, _⟩ => ⟨S6500000, .i1⟩
  | .hbm, ⟨67, _⟩ => ⟨S_, .i32⟩
  | .hbm, ⟨68, _⟩ => ⟨S6500000, .i32⟩
  | .hbm, ⟨69, _⟩ => ⟨S6500000, .i32⟩
  | .hbm, ⟨70, _⟩ => ⟨S6500000, .i32⟩
  | .hbm, ⟨71, _⟩ => ⟨S6500000x1, .i32⟩
  | .hbm, ⟨72, _⟩ => ⟨S6500000x25, .f32⟩
  | .hbm, ⟨73, _⟩ => ⟨S6500000x25, .f32⟩
  | .hbm, ⟨74, _⟩ => ⟨S6500000x25, .f32⟩
  | .hbm, ⟨75, _⟩ => ⟨S_, .f32⟩
  | .hbm, ⟨76, _⟩ => ⟨S100000x25, .f32⟩
  | .hbm, ⟨77, _⟩ => ⟨S6500000x1, .i32⟩
  | .hbm, ⟨78, _⟩ => ⟨S100000x25, .f32⟩
  | .hbm, ⟨79, _⟩ => ⟨S1x25, .f32⟩
  | .hbm, ⟨80, _⟩ => ⟨S100000x25, .f32⟩
  | .hbm, ⟨81, _⟩ => ⟨S100000x25, .f32⟩
  | _, _ => ⟨S100000x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_7 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x30_0_1 : S6500000x1.BroadcastsInDim S6500000x30 (![0, 1] : Fin 2 → Fin S6500000x30.rank)
  bcast_S_S100000x30 : S_.BroadcastsInDim S100000x30 (![] : Fin 0 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  bcast_S6500000x1_S6500000x25_0_1 : S6500000x1.BroadcastsInDim S6500000x25 (![0, 1] : Fin 2 → Fin S6500000x25.rank)
  bcast_S_S100000x25 : S_.BroadcastsInDim S100000x25 (![] : Fin 0 → Fin S100000x25.rank)
  bcast_S25_S1x25_1 : S25.BroadcastsInDim S1x25 (![1] : Fin 1 → Fin S1x25.rank)
  bcast_S1x25_S100000x25_0_1 : S1x25.BroadcastsInDim S100000x25 (![0, 1] : Fin 2 → Fin S100000x25.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S100000x50_S50x30_S100000x30_1_0_0_1_n_n_wf : DotDims.WF S100000x50 S50x30 S100000x30 [1] [0] [0] [1] [] []
  gather_S100000x30_S6500000x1_S6500000x30_1_0_n_n_0_1_130_wf : GatherDims.WF S100000x30 S6500000x1 S6500000x30 [1] [0] [] [0] [] 1 ![1, 30]
  scatter_S100000x30_S6500000x1_S6500000x30_1_0_0_1_wf : ScatterDims.WF S100000x30 S6500000x1 S6500000x30 [1] [0] [0] 1
  dot_S100000x30_S30x25_S100000x25_1_0_0_1_n_n_wf : DotDims.WF S100000x30 S30x25 S100000x25 [1] [0] [0] [1] [] []
  gather_S100000x25_S6500000x1_S6500000x25_1_0_n_n_0_1_125_wf : GatherDims.WF S100000x25 S6500000x1 S6500000x25 [1] [0] [] [0] [] 1 ![1, 25]
  scatter_S100000x25_S6500000x1_S6500000x25_1_0_0_1_wf : ScatterDims.WF S100000x25 S6500000x1 S6500000x25 [1] [0] [0] 1

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S100000x50_S50x30_S100000x30_1_0_0_1_n_n : DotDims S100000x50 S50x30 S100000x30 where
  lhsContracting := [1]
  rhsContracting := [0]
  lhsNonContracting := [0]
  rhsNonContracting := [1]
  lhsBatch := []
  rhsBatch := []
  wf := dot_S100000x50_S50x30_S100000x30_1_0_0_1_n_n_wf
def gather_S100000x30_S6500000x1_S6500000x30_1_0_n_n_0_1_130 : GatherDims S100000x30 S6500000x1 S6500000x30 where
  offsetDims := [1]
  collapsedSliceDims := [0]
  operandBatchingDims := []
  startIndicesBatchingDims := []
  startIndexMap := [0]
  indexVectorDim := 1
  sliceSizes := ![1, 30]
  wf := gather_S100000x30_S6500000x1_S6500000x30_1_0_n_n_0_1_130_wf
def scatter_S100000x30_S6500000x1_S6500000x30_1_0_0_1 : ScatterDims S100000x30 S6500000x1 S6500000x30 where
  updateWindowDims := [1]
  insertedWindowDims := [0]
  scatterDimsToOperandDims := [0]
  indexVectorDim := 1
  wf := scatter_S100000x30_S6500000x1_S6500000x30_1_0_0_1_wf
def dot_S100000x30_S30x25_S100000x25_1_0_0_1_n_n : DotDims S100000x30 S30x25 S100000x25 where
  lhsContracting := [1]
  rhsContracting := [0]
  lhsNonContracting := [0]
  rhsNonContracting := [1]
  lhsBatch := []
  rhsBatch := []
  wf := dot_S100000x30_S30x25_S100000x25_1_0_0_1_n_n_wf
def gather_S100000x25_S6500000x1_S6500000x25_1_0_n_n_0_1_125 : GatherDims S100000x25 S6500000x1 S6500000x25 where
  offsetDims := [1]
  collapsedSliceDims := [0]
  operandBatchingDims := []
  startIndicesBatchingDims := []
  startIndexMap := [0]
  indexVectorDim := 1
  sliceSizes := ![1, 25]
  wf := gather_S100000x25_S6500000x1_S6500000x25_1_0_n_n_0_1_125_wf
def scatter_S100000x25_S6500000x1_S6500000x25_1_0_0_1 : ScatterDims S100000x25 S6500000x1 S6500000x25 where
  updateWindowDims := [1]
  insertedWindowDims := [0]
  scatterDimsToOperandDims := [0]
  indexVectorDim := 1
  wf := scatter_S100000x25_S6500000x1_S6500000x25_1_0_0_1_wf

class Facts : Prop extends Facts₀ where

variable [Facts]
-- ==== Proof.KernelRun.lean ====
/-
  The idealized kernel's run with its result named.

  @main is six segments: a stretch of host operations, the first dense product, a stretch, the fused
  bias + relu + second dense product, a stretch, the final bias addition.  The buffer contents at the
  six boundaries are the fold `W0 … W6`.  Every weakly fair execution terminates with each unscoped
  buffer at its `W6` contents; read at the result buffer this names the result, and read at the six
  argument buffers it says they end as launched.
-/
import proofs.«121649_j12189117186553_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.Dense0.lean ====
/-
  The first dense product, x · W1, as the kernel computes it: twenty row blocks of 5000 rows, each block the
  product of its 5000 × 50 rows of x with the whole 50 × 30 matrix, accumulated into zero.  At an entry
  (r, j) of a block this is the sum over k of x(r, k) · W1(k, j); rounding the operands to bf16 is the
  identity on extended reals.  Block t of the result array is rows 5000·t … 5000·t + 4999, the blocks tile
  the array, so the array ends as the whole product — the function the reference's dot_general computes.
-/
import proofs.«121649_j12189117186553_1_alg».proof.Proof.Gen.KernelIdeal.Frame
import proofs.«121649_j12189117186553_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row r, column k of the left block. -/
abbrev lix (y : S5000x30.Idx) (k : Fin 50) : S5000x50.Idx := fun a => match a with
  | ⟨0, _⟩ => ⟨(y 0).val, (y 0).isLt⟩
  | ⟨1, _⟩ => ⟨k.val, k.isLt⟩
/-- Row k, column j of the right matrix. -/
abbrev rix (y : S5000x30.Idx) (k : Fin 50) : S50x30.Idx := fun a => match a with
  | ⟨0, _⟩ => ⟨k.val, k.isLt⟩
  | ⟨1, _⟩ => ⟨(y 1).val, (y 1).isLt⟩

theorem lhs_0 (i : S5000x30.Idx) (q : dot_S5000x50_S50x30_S5000x30_1_0_0_1_n_n.contr.Idx) :
    (dot_S5000x50_S50x30_S5000x30_1_0_0_1_n_n.lhsIdx i q 0).val = (i 0).val := by
  unfold DotDims.lhsIdx
  rw [dif_neg (show ¬(0 : Fin S5000x50.rank) ∈ dot_S5000x50_S50x30_S5000x30_1_0_0_1_n_n.lhsBatch by decide), dif_pos (show (0 : Fin S5000x50.rank) ∈ dot_S5000x50_S50x30_S5000x30_1_0_0_1_n_n.lhsNonContracting by decide)]
  rfl
theorem lhs_1 (i : S5000x30.Idx) (q : dot_S5000x50_S50x30_S5000x30_1_0_0_1_n_n.contr.Idx) :
    (dot_S5000x50_S50x30_S5000x30_1_0_0_1_n_n.lhsIdx i q 1).val = (q ⟨0, by decide⟩).val :=
  dot_S5000x50_S50x30_S5000x30_1_0_0_1_n_n.lhsIdx_val_of_single rfl i q
theorem rhs_0 (i : S5000x30.Idx) (q : dot_S5000x50_S50x30_S5000x30_1_0_0_1_n_n.contr.Idx) :
    (dot_S5000x50_S50x30_S5000x30_1_0_0_1_n_n.rhsIdx i q 0).val = (q ⟨0, by decide⟩).val :=
  dot_S5000x50_S50x30_S5000x30_1_0_0_1_n_n.rhsIdx_val_of_single rfl i q
theorem rhs_1 (i : S5000x30.Idx) (q : dot_S5000x50_S50x30_S5000x30_1_0_0_1_n_n.contr.Idx) :
    (dot_S5000x50_S50x30_S5000x30_1_0_0_1_n_n.rhsIdx i q 1).val = (i 1).val := by
  unfold DotDims.rhsIdx
  rw [dif_neg (show ¬(1 : Fin S50x30.rank) ∈ dot_S5000x50_S50x30_S5000x30_1_0_0_1_n_n.rhsBatch by decide), dif_pos (show (1 : Fin S50x30.rank) ∈ dot_S5000x50_S50x30_S5000x30_1_0_0_1_n_n.rhsNonContracting by decide)]
  rfl

/-- The body's stored value at (r, j): the sum over k of x(r, k) · w(k, j). -/
theorem pay_apply (x0 : Vec Ideal S5000x50 .f32) (x1 : Vec Ideal S50x30 .f32) (y : S5000x30.Idx) :
    k0_pay1 (F := Ideal) x0 x1 y = ∑ k : Fin 50, x0 (lix y k) * x1 (rix y k) := by
  unfold k0_pay1
  refine (Ideal.matmul_constant_zero_apply dot_S5000x50_S50x30_S5000x30_1_0_0_1_n_n none _ _ y).trans ?_
  rw [← Equiv.sum_comp (ValueIdx.contrEquiv1 dot_S5000x50_S50x30_S5000x30_1_0_0_1_n_n 50 rfl rfl).symm]
  refine Finset.sum_congr rfl fun k _ => ?_
  have hk := ValueIdx.contrEquiv1_symm_val dot_S5000x50_S50x30_S5000x30_1_0_0_1_n_n 50 rfl rfl k
  have el : dot_S5000x50_S50x30_S5000x30_1_0_0_1_n_n.lhsIdx y ((ValueIdx.contrEquiv1 dot_S5000x50_S50x30_S5000x30_1_0_0_1_n_n 50 rfl rfl).symm k) = lix y k := funext fun a => Fin.ext (by
    match a with
    | ⟨0, _⟩ => exact lhs_0 _ _
    | ⟨1, _⟩ => exact (lhs_1 _ _).trans hk)
  have er : dot_S5000x50_S50x30_S5000x30_1_0_0_1_n_n.rhsIdx y ((ValueIdx.contrEquiv1 dot_S5000x50_S50x30_S5000x30_1_0_0_1_n_n 50 rfl rfl).symm k) = rix y k := funext fun a => Fin.ext (by
    match a with
    | ⟨0, _⟩ => exact (rhs_0 _ _).trans hk
    | ⟨1, _⟩ => exact rhs_1 _ _)
  rw [el, er]
  rfl

/-- The printed index maps over the grid: the x block and the result block move together down the rows,
    every other block index is zero, and the result's row-block index is the grid point. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every row block is some grid point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What grid point t writes back is block t of the whole product. -/
theorem flushed_eq (c : Dev nD) (t : Fin cfg0.N) :
    (dat0 V c).flushed 2 t = ((cfg0.win 2).blk t).view.read (Elt Ideal)
      (Cert.ReferenceIdeal.Read.val_main_v27 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x50) hz, View.ld_unit_zero (S := S50x30) hz]
  obtain ⟨e0, e1, e2, e3, e4⟩ := idx_facts t
  funext y
  show k0_pay1 (F := Ideal) (iblk0 V c 0 t) (iblk0 V c 1 t) y
    = Cert.ReferenceIdeal.Read.val_main_v27 (F := Ideal) (V c main_arg0) (V c main_arg2) (((cfg0.win 2).blk t).view.emb y)
  refine (pay_apply (iblk0 V c 0 t) (iblk0 V c 1 t) y).trans ?_
  refine ((Cert.ReferenceIdeal.Read.val_main_v27_apply (V c main_arg0) (V c main_arg2) (((cfg0.win 2).blk t).view.emb y)).trans ?_).symm
  refine Finset.sum_congr rfl fun k _ => ?_
  have h0 : V c main_arg0 (Cert.ReferenceIdeal.Read.lidx_main_v27 (((cfg0.win 2).blk t).view.emb y) k) = iblk0 V c 0 t (lix y k) := by
    show V c main_arg0 _ = V c main_arg0 (((cfg0.win 0).blk t).view.emb (lix y k))
    refine congrArg (V c main_arg0) (funext fun a => Fin.ext ?_)
    match a with
    | ⟨0, _⟩ => show win0_2.index t (0 : Fin 2) * 5000 + 1 * (y 0).val = win0_0.index t (0 : Fin 2) * 5000 + 1 * (y 0).val; omega
    | ⟨1, _⟩ => show k.val = win0_0.index t (1 : Fin 2) * 50 + 1 * k.val; omega
  have h1 : V c main_arg2 (Cert.ReferenceIdeal.Read.ridx_main_v27 (((cfg0.win 2).blk t).view.emb y) k) = iblk0 V c 1 t (rix y k) := by
    show V c main_arg2 _ = V c main_arg2 (((cfg0.win 1).blk t).view.emb (rix y k))
    refine congrArg (V c main_arg2) (funext fun a => Fin.ext ?_)
    match a with
    | ⟨0, _⟩ => show k.val = win0_1.index t (0 : Fin 2) * 50 + 1 * k.val; omega
    | ⟨1, _⟩ => show win0_2.index t (1 : Fin 2) * 30 + 1 * (y 1).val = win0_1.index t (1 : Fin 2) * 30 + 1 * (y 1).val; omega
  rw [h0, h1]

/-- An index of the array is in point t's block iff each coordinate is in the block's range on its axis. -/
theorem mem_blk (t : Fin cfg0.N) (i : S100000x30.Idx) :
    i ∈ ((cfg0.win 2).blk t).view.set ↔ ∀ a : Fin 2, win0_2.index t a * S5000x30.size a ≤ (i a).val ∧ (i a).val < win0_2.index t a * S5000x30.size a + S5000x30.size a := by
  show i ∈ ((View.whole main_v27).slice (win0_2.rect t)).set ↔ _
  rw [View.set_slice_whole, Rect.mem_set_unit]
  exact Iff.rfl

/-- The twenty row blocks cover the array: row r lies in block r / 5000. -/
theorem cover (i : S100000x30.Idx) : ∃ t : Fin cfg0.N, (cfg0.win 2).flush t = true ∧ i ∈ ((cfg0.win 2).blk t).view.set := by
  have hi0 : (i 0).val < 100000 := (i 0).isLt
  have hi1 : (i 1).val < 30 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 30 ≤ (i 1).val ∧ (i 1).val < win0_2.index t (1 : Fin 2) * 30 + 30; omega

/-- The result array after the region: the whole product of the arrays the region found. -/
theorem final (c : Dev nD) : (dat0 V c).arrAt 2 cfg0.N
    = Cert.ReferenceIdeal.Read.val_main_v27 (F := Ideal) (V c main_arg0) (V c main_arg2) :=
  (dat0 V c).arrAt_eq_of_cover 2 _ (fun t _ => flushed_eq V c t) cover

end Cert.KernelIdeal.Dense0

end
-- ==== Proof.Dense1.lean ====
/-
  The fused second layer as the kernel computes it: twenty row blocks of 5000 rows; on a block the bias row is
  added to every row of the aggregated features, the result is clamped below at zero, and the clamped block is
  multiplied by the whole 30 × 25 matrix into a zero accumulator.  At an entry (r, j) this is the sum over k of
  max(a(r, k) + b(k), 0) · W2(k, j).  The blocks tile the result array, so the array ends as that function of
  the three arrays the region found.
-/
import proofs.«121649_j12189117186553_1_alg».proof.Proof.Gen.KernelIdeal.Frame
import proofs.«121649_j12189117186553_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry k of the bias row. -/
abbrev bix (k : Fin 30) : S1x30.Idx := fun a => match a with
  | ⟨0, _⟩ => ⟨0, Nat.one_pos⟩
  | ⟨1, _⟩ => ⟨k.val, k.isLt⟩

/-- relu(a + b) · w over whole arrays: entry (r, j) is the sum over k of max(a(r, k) + b(k), 0) · w(k, j). -/
def reluDense (a : S100000x30.Idx → EReal) (b : S1x30.Idx → EReal) (w : S30x25.Idx → EReal) : S100000x25.Idx → EReal :=
  fun i => ∑ k : Fin 30, max (a (Cert.ReferenceIdeal.Read.lidx_main_v45 i k) + b (bix k)) (Ideal.ofBits .f32 0x00000000#32)
    * w (Cert.ReferenceIdeal.Read.ridx_main_v45 i k)

/-- Row r, column k of the left block. -/
abbrev lix (y : S5000x25.Idx) (k : Fin 30) : S5000x30.Idx := fun a => match a with
  | ⟨0, _⟩ => ⟨(y 0).val, (y 0).isLt⟩
  | ⟨1, _⟩ => ⟨k.val, k.isLt⟩
/-- Row k, column j of the right matrix. -/
abbrev rix (y : S5000x25.Idx) (k : Fin 30) : S30x25.Idx := fun a => match a with
  | ⟨0, _⟩ => ⟨k.val, k.isLt⟩
  | ⟨1, _⟩ => ⟨(y 1).val, (y 1).isLt⟩

theorem lhs_0 (i : S5000x25.Idx) (q : dot_S5000x30_S30x25_S5000x25_1_0_0_1_n_n.contr.Idx) :
    (dot_S5000x30_S30x25_S5000x25_1_0_0_1_n_n.lhsIdx i q 0).val = (i 0).val := by
  unfold DotDims.lhsIdx
  rw [dif_neg (show ¬(0 : Fin S5000x30.rank) ∈ dot_S5000x30_S30x25_S5000x25_1_0_0_1_n_n.lhsBatch by decide), dif_pos (show (0 : Fin S5000x30.rank) ∈ dot_S5000x30_S30x25_S5000x25_1_0_0_1_n_n.lhsNonContracting by decide)]
  rfl
theorem lhs_1 (i : S5000x25.Idx) (q : dot_S5000x30_S30x25_S5000x25_1_0_0_1_n_n.contr.Idx) :
    (dot_S5000x30_S30x25_S5000x25_1_0_0_1_n_n.lhsIdx i q 1).val = (q ⟨0, by decide⟩).val :=
  dot_S5000x30_S30x25_S5000x25_1_0_0_1_n_n.lhsIdx_val_of_single rfl i q
theorem rhs_0 (i : S5000x25.Idx) (q : dot_S5000x30_S30x25_S5000x25_1_0_0_1_n_n.contr.Idx) :
    (dot_S5000x30_S30x25_S5000x25_1_0_0_1_n_n.rhsIdx i q 0).val = (q ⟨0, by decide⟩).val :=
  dot_S5000x30_S30x25_S5000x25_1_0_0_1_n_n.rhsIdx_val_of_single rfl i q
theorem rhs_1 (i : S5000x25.Idx) (q : dot_S5000x30_S30x25_S5000x25_1_0_0_1_n_n.contr.Idx) :
    (dot_S5000x30_S30x25_S5000x25_1_0_0_1_n_n.rhsIdx i q 1).val = (i 1).val := by
  unfold DotDims.rhsIdx
  rw [dif_neg (show ¬(1 : Fin S30x25.rank) ∈ dot_S5000x30_S30x25_S5000x25_1_0_0_1_n_n.rhsBatch by decide), dif_pos (show (1 : Fin S30x25.rank) ∈ dot_S5000x30_S30x25_S5000x25_1_0_0_1_n_n.rhsNonContracting by decide)]
  rfl

/-- The bias row spread over a block reads the row's entry at the column. -/
theorem bias_apply (x1 : Vec Ideal S1x30 .f32) (j : S5000x30.Idx) (k : Fin 30) (hk : (j 1).val = k.val) :
    broadcastTo S5000x30 (shapeCast S1x30 x1 shapeCasts_S1x30_S1x30) broadcasts_S1x30_S5000x30 j = x1 (bix k) := by
  rw [shapeCast_self]
  exact broadcastTo_apply x1 broadcasts_S1x30_S5000x30 j (bix k) (fun a => match a with
    | ⟨0, _⟩ => by show 0 = if (1 : Nat) = 1 then 0 else _; rw [if_pos rfl]
    | ⟨1, _⟩ => by show k.val = if (30 : Nat) = 1 then 0 else (j 1).val; rw [if_neg (by decide), hk])

/-- The body's stored value at (r, j): the sum over k of max(a(r, k) + b(k), 0) · w(k, j). -/
theorem pay_apply (x0 : Vec Ideal S5000x30 .f32) (x1 : Vec Ideal S1x30 .f32) (x2 : Vec Ideal S30x25 .f32) (y : S5000x25.Idx) :
    k1_pay1 (F := Ideal) x0 x1 x2 y
      = ∑ k : Fin 30, max (x0 (lix y k) + x1 (bix k)) (Ideal.ofBits .f32 0x00000000#32) * x2 (rix y k) := by
  unfold k1_pay1
  refine (Ideal.matmul_constant_zero_apply dot_S5000x30_S30x25_S5000x25_1_0_0_1_n_n none _ _ y).trans ?_
  rw [← Equiv.sum_comp (ValueIdx.contrEquiv1 dot_S5000x30_S30x25_S5000x25_1_0_0_1_n_n 30 rfl rfl).symm]
  refine Finset.sum_congr rfl fun k _ => ?_
  have hk := ValueIdx.contrEquiv1_symm_val dot_S5000x30_S30x25_S5000x25_1_0_0_1_n_n 30 rfl rfl k
  have el : dot_S5000x30_S30x25_S5000x25_1_0_0_1_n_n.lhsIdx y ((ValueIdx.contrEquiv1 dot_S5000x30_S30x25_S5000x25_1_0_0_1_n_n 30 rfl rfl).symm k) = lix y k := funext fun a => Fin.ext (by
    match a with
    | ⟨0, _⟩ => exact lhs_0 _ _
    | ⟨1, _⟩ => exact (lhs_1 _ _).trans hk)
  have er : dot_S5000x30_S30x25_S5000x25_1_0_0_1_n_n.rhsIdx y ((ValueIdx.contrEquiv1 dot_S5000x30_S30x25_S5000x25_1_0_0_1_n_n 30 rfl rfl).symm k) = rix y k := funext fun a => Fin.ext (by
    match a with
    | ⟨0, _⟩ => exact (rhs_0 _ _).trans hk
    | ⟨1, _⟩ => exact rhs_1 _ _)
  rw [el, er]
  show max (shapeCast S5000x30 x0 shapeCasts_S5000x30_S5000x30 (lix y k)
        + broadcastTo S5000x30 (shapeCast S1x30 x1 shapeCasts_S1x30_S1x30) broadcasts_S1x30_S5000x30 (lix y k))
      (Ideal.ofBits .f32 0x00000000#32) * x2 (rix y k) = _
  rw [bias_apply x1 (lix y k) k rfl, shapeCast_self]

/-- The printed index maps over the grid: the feature block and the result block move together down the rows;
    every other block index is zero. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every row block is some grid point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- What grid point t writes back is block t of relu(a + b) · w. -/
theorem flushed_eq (c : Dev nD) (t : Fin cfg1.N) :
    (dat1 V c).flushed 3 t = ((cfg1.win 3).blk t).view.read (Elt Ideal)
      (reluDense (V c main_v40) (V c main_v41) (V c main_arg4)) := by
  show (cfg1.win 3).cut (grid1.coords t) ((dat1 V c).after 3 t) = _
  rw [after1_3]
  unfold out1_3
  rw [View.canon_unit_zero hz]
  simp only [View.ld_unit_zero (S := S5000x30) hz, View.ld_unit_zero (S := S1x30) hz, View.ld_unit_zero (S := S30x25) hz]
  obtain ⟨e0, e1, e2, e3, e4, e5, e6⟩ := idx_facts t
  funext y
  show k1_pay1 (F := Ideal) (iblk1 V c 0 t) (iblk1 V c 1 t) (iblk1 V c 2 t) y
    = reluDense (V c main_v40) (V c main_v41) (V c main_arg4) (((cfg1.win 3).blk t).view.emb y)
  refine (pay_apply (iblk1 V c 0 t) (iblk1 V c 1 t) (iblk1 V c 2 t) y).trans ?_
  unfold reluDense
  refine Finset.sum_congr rfl fun k _ => ?_
  have h0 : iblk1 V c 0 t (lix y k) = V c main_v40 (Cert.ReferenceIdeal.Read.lidx_main_v45 (((cfg1.win 3).blk t).view.emb y) k) := by
    show V c main_v40 (((cfg1.win 0).blk t).view.emb (lix y k)) = V c main_v40 _
    refine congrArg (V c main_v40) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 30 + 1 * k.val = k.val; omega
  have h1 : iblk1 V c 1 t (bix k) = V c main_v41 (bix k) := by
    show V c main_v41 (((cfg1.win 1).blk t).view.emb (bix k)) = V c main_v41 _
    refine congrArg (V c main_v41) (funext fun a => Fin.ext ?_)
    match a with
    | ⟨0, _⟩ => show win1_1.index t (0 : Fin 2) * 1 + 1 * 0 = 0; omega
    | ⟨1, _⟩ => show win1_1.index t (1 : Fin 2) * 30 + 1 * k.val = k.val; omega
  have h2 : iblk1 V c 2 t (rix y k) = V c main_arg4 (Cert.ReferenceIdeal.Read.ridx_main_v45 (((cfg1.win 3).blk t).view.emb y) k) := by
    show V c main_arg4 (((cfg1.win 2).blk t).view.emb (rix y k)) = V c main_arg4 _
    refine congrArg (V c main_arg4) (funext fun a => Fin.ext ?_)
    match a with
    | ⟨0, _⟩ => show win1_2.index t (0 : Fin 2) * 30 + 1 * k.val = k.val; omega
    | ⟨1, _⟩ => show win1_2.index t (1 : Fin 2) * 25 + 1 * (y 1).val = win1_3.index t (1 : Fin 2) * 25 + 1 * (y 1).val; omega
  rw [h0, h1, h2]

/-- An index of the array is in point t's block iff each coordinate is in the block's range on its axis. -/
theorem mem_blk (t : Fin cfg1.N) (i : S100000x25.Idx) :
    i ∈ ((cfg1.win 3).blk t).view.set ↔ ∀ a : Fin 2, win1_3.index t a * S5000x25.size a ≤ (i a).val ∧ (i a).val < win1_3.index t a * S5000x25.size a + S5000x25.size a := by
  show i ∈ ((View.whole main_v42).slice (win1_3.rect t)).set ↔ _
  rw [View.set_slice_whole, Rect.mem_set_unit]
  exact Iff.rfl

/-- The twenty row blocks cover the array: row r lies in block r / 5000. -/
theorem cover (i : S100000x25.Idx) : ∃ t : Fin cfg1.N, (cfg1.win 3).flush t = true ∧ i ∈ ((cfg1.win 3).blk t).view.set := by
  have hi0 : (i 0).val < 100000 := (i 0).isLt
  have hi1 : (i 1).val < 25 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 25 ≤ (i 1).val ∧ (i 1).val < win1_3.index t (1 : Fin 2) * 25 + 25; omega

/-- The result array after the region: relu(a + b) · w of the arrays the region found. -/
theorem final (c : Dev nD) : (dat1 V c).arrAt 3 cfg1.N = reluDense (V c main_v40) (V c main_v41) (V c main_arg4) :=
  (dat1 V c).arrAt_eq_of_cover 3 _ (fun t _ => flushed_eq V c t) cover

end Cert.KernelIdeal.Dense1

end
-- ==== Proof.Bias2.lean ====
/-
  The final bias addition as the kernel computes it: twenty row blocks of 5000 rows; on a block the bias row
  is added to every row.  Entry (r, j) is a(r, j) + b(j).  The blocks tile the result array, so the array
  ends as that function of the two arrays the region found.
-/
import proofs.«121649_j12189117186553_1_alg».proof.Proof.Gen.KernelIdeal.Frame
import proofs.«121649_j12189117186553_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Bias2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The bias row's entry for column j of a block. -/
abbrev bix (y : S5000x25.Idx) : S1x25.Idx := fun a => match a with
  | ⟨0, _⟩ => ⟨0, Nat.one_pos⟩
  | ⟨1, _⟩ => ⟨(y 1).val, (y 1).isLt⟩

/-- a + b over whole arrays: entry (r, j) is a(r, j) + b(j). -/
def addRow (a : S100000x25.Idx → EReal) (b : S1x25.Idx → EReal) : S100000x25.Idx → EReal :=
  fun i => a i + b (Cert.ReferenceIdeal.Read.idx_main_v60 i)

/-- The body's stored value at (r, j): a(r, j) + b(j). -/
theorem pay_apply (x0 : Vec Ideal S5000x25 .f32) (x1 : Vec Ideal S1x25 .f32) (y : S5000x25.Idx) :
    k2_pay1 (F := Ideal) x0 x1 y = x0 y + x1 (bix y) := by
  unfold k2_pay1
  show shapeCast S5000x25 x0 shapeCasts_S5000x25_S5000x25 y
      + broadcastTo S5000x25 (shapeCast S1x25 x1 shapeCasts_S1x25_S1x25) broadcasts_S1x25_S5000x25 y = _
  rw [shapeCast_self, shapeCast_self]
  refine congrArg (x0 y + ·) ?_
  exact broadcastTo_apply x1 broadcasts_S1x25_S5000x25 y (bix y) (fun a => match a with
    | ⟨0, _⟩ => by show 0 = if (1 : Nat) = 1 then 0 else _; rw [if_pos rfl]
    | ⟨1, _⟩ => by show (y 1).val = if (25 : Nat) = 1 then 0 else (y 1).val; rw [if_neg (by decide)])

/-- The printed index maps over the grid: the input block and the result block move together down the rows;
    every other block index is zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every row block is some grid point's. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- What grid point t writes back is block t of a + b. -/
theorem flushed_eq (c : Dev nD) (t : Fin cfg2.N) :
    (dat2 V c).flushed 2 t = ((cfg2.win 2).blk t).view.read (Elt Ideal) (addRow (V c main_v55) (V c main_v56)) := by
  show (cfg2.win 2).cut (grid2.coords t) ((dat2 V c).after 2 t) = _
  rw [after2_2]
  unfold out2_2
  rw [View.canon_unit_zero hz]
  simp only [View.ld_unit_zero (S := S5000x25) hz, View.ld_unit_zero (S := S1x25) hz]
  obtain ⟨e0, e1, e2, e3, e4⟩ := idx_facts t
  funext y
  show k2_pay1 (F := Ideal) (iblk2 V c 0 t) (iblk2 V c 1 t) y
    = addRow (V c main_v55) (V c main_v56) (((cfg2.win 2).blk t).view.emb y)
  refine (pay_apply (iblk2 V c 0 t) (iblk2 V c 1 t) y).trans ?_
  unfold addRow
  have h0 : iblk2 V c 0 t y = V c main_v55 (((cfg2.win 2).blk t).view.emb y) := by
    show V c main_v55 (((cfg2.win 0).blk t).view.emb y) = V c main_v55 _
    refine congrArg (V c main_v55) (funext fun a => Fin.ext ?_)
    match a with
    | ⟨0, _⟩ => show win2_0.index t (0 : Fin 2) * 5000 + 1 * (y 0).val = win2_2.index t (0 : Fin 2) * 5000 + 1 * (y 0).val; omega
    | ⟨1, _⟩ => show win2_0.index t (1 : Fin 2) * 25 + 1 * (y 1).val = win2_2.index t (1 : Fin 2) * 25 + 1 * (y 1).val; omega
  have h1 : iblk2 V c 1 t (bix y) = V c main_v56 (Cert.ReferenceIdeal.Read.idx_main_v60 (((cfg2.win 2).blk t).view.emb y)) := by
    show V c main_v56 (((cfg2.win 1).blk t).view.emb (bix y)) = V c main_v56 _
    refine congrArg (V c main_v56) (funext fun a => Fin.ext ?_)
    match a with
    | ⟨0, _⟩ => show win2_1.index t (0 : Fin 2) * 1 + 1 * 0 = 0; omega
    | ⟨1, _⟩ => show win2_1.index t (1 : Fin 2) * 25 + 1 * (y 1).val = win2_2.index t (1 : Fin 2) * 25 + 1 * (y 1).val; omega
  rw [h0, h1]

/-- An index of the array is in point t's block iff each coordinate is in the block's range on its axis. -/
theorem mem_blk (t : Fin cfg2.N) (i : S100000x25.Idx) :
    i ∈ ((cfg2.win 2).blk t).view.set ↔ ∀ a : Fin 2, win2_2.index t a * S5000x25.size a ≤ (i a).val ∧ (i a).val < win2_2.index t a * S5000x25.size a + S5000x25.size a := by
  show i ∈ ((View.whole main_v57).slice (win2_2.rect t)).set ↔ _
  rw [View.set_slice_whole, Rect.mem_set_unit]
  exact Iff.rfl

/-- The twenty row blocks cover the array: row r lies in block r / 5000. -/
theorem cover (i : S100000x25.Idx) : ∃ t : Fin cfg2.N, (cfg2.win 2).flush t = true ∧ i ∈ ((cfg2.win 2).blk t).view.set := by
  have hi0 : (i 0).val < 100000 := (i 0).isLt
  have hi1 : (i 1).val < 25 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 25 ≤ (i 1).val ∧ (i 1).val < win2_2.index t (1 : Fin 2) * 25 + 25; omega

/-- The result array after the region: a + b of the arrays the region found. -/
theorem final (c : Dev nD) : (dat2 V c).arrAt 2 cfg2.N = addRow (V c main_v55) (V c main_v56) :=
  (dat2 V c).arrAt_eq_of_cover 2 _ (fun t _ => flushed_eq V c t) cover

end Cert.KernelIdeal.Bias2

end
-- ==== Proof.Bridge.lean ====
/-
  The two whole-array functions the kernel's fused regions compute, met with the reference's stages.

  relu(a + b) · w, with a the first layer's aggregation and b the first bias laid out as a row, is the
  reference's second product: the reference adds the bias spread over all rows, takes the maximum with
  zero, and contracts with the second weight matrix, which entry by entry is the same sum.
  a + b, with a the second layer's aggregation and b the second bias as a row, is the reference's result.
  A bias laid out as a one-row matrix by a reshape and by a broadcast along a new leading axis read the
  same entry.
-/
import proofs.«121649_j12189117186553_1_alg».proof.Proof.Gen.KernelIdeal.Frame
import proofs.«121649_j12189117186553_1_alg».proof.Proof.Gen.ReferenceIdeal.Read
import Idealize.ShloMosaic.Lib.Pipeline.Value
import Idealize.ShloMosaic.Lib.ValueIdx
import Idealize.ShloMosaic.PureOps.Ideal.Laws
import proofs.«121649_j12189117186553_1_alg».proof.Proof.Dense1
import proofs.«121649_j12189117186553_1_alg».proof.Proof.Bias2
set_option maxRecDepth 16384

noncomputable section

namespace Cert.KernelIdeal.Bridge

open Cert.KernelIdeal Cert.KernelIdeal.Gen
open Idealize.ShloMosaic Idealize.ShloMosaic.TcCoe Idealize.SL.Sem

/-- relu(agg₁ + b₁) · W₂ is the reference's second product. -/
theorem reluDense_eq (x0 : (⟨S100000x50, .f32⟩ : BufTy).Contents (Elt Ideal)) (x1 : (⟨S2x6400000, .i32⟩ : BufTy).Contents (Elt Ideal))
    (x2 : (⟨S50x30, .f32⟩ : BufTy).Contents (Elt Ideal)) (x3 : (⟨S30, .f32⟩ : BufTy).Contents (Elt Ideal))
    (x4 : (⟨S30x25, .f32⟩ : BufTy).Contents (Elt Ideal)) :
    Dense1.reluDense (Cert.ReferenceIdeal.Read.val_main_v40 (F := Ideal) x0 x1 x2) (shapeCast S1x30 x3 shapeCasts_S30_S1x30) x4
      = Cert.ReferenceIdeal.Read.val_main_v45 (F := Ideal) x0 x1 x2 x3 x4 := by
  funext i
  unfold Dense1.reluDense
  rw [Cert.ReferenceIdeal.Read.val_main_v45_apply]
  refine Finset.sum_congr rfl fun k _ => ?_
  rw [Cert.ReferenceIdeal.Read.val_main_v44_apply, Cert.ReferenceIdeal.Read.val_main_v43_apply, Cert.ReferenceIdeal.Read.val_main_v42_apply, Cert.ReferenceIdeal.Read.val_main_v41_apply,
    Cert.ReferenceIdeal.Read.val_main_call0_v0_apply, Cert.ReferenceIdeal.Read.val_main_call0_cst_apply]
  have hb : shapeCast S1x30 x3 shapeCasts_S30_S1x30 (Dense1.bix k)
      = x3 (Cert.ReferenceIdeal.Read.idx_main_v41 (Cert.ReferenceIdeal.Read.idx_main_v42 (Cert.ReferenceIdeal.Read.lidx_main_v45 i k))) :=
    shapeCast_apply x3 shapeCasts_S30_S1x30 (Dense1.bix k) _ (by
      rw [Shape.rowMajor_val_two, Shape.rowMajor_val_one]; show k.val = 0 * 30 + k.val; omega)
  rw [hb]
  rfl

/-- agg₂ + b₂ is the reference's result. -/
theorem addRow_eq (x0 : (⟨S100000x50, .f32⟩ : BufTy).Contents (Elt Ideal)) (x1 : (⟨S2x6400000, .i32⟩ : BufTy).Contents (Elt Ideal))
    (x2 : (⟨S50x30, .f32⟩ : BufTy).Contents (Elt Ideal)) (x3 : (⟨S30, .f32⟩ : BufTy).Contents (Elt Ideal))
    (x4 : (⟨S30x25, .f32⟩ : BufTy).Contents (Elt Ideal)) (x5 : (⟨S25, .f32⟩ : BufTy).Contents (Elt Ideal)) :
    Bias2.addRow (Cert.ReferenceIdeal.Read.val_main_v58 (F := Ideal) x0 x1 x2 x3 x4) (shapeCast S1x25 x5 shapeCasts_S25_S1x25)
      = Cert.ReferenceIdeal.Read.val_main_v61 (F := Ideal) x0 x1 x2 x3 x4 x5 := by
  funext i
  unfold Bias2.addRow
  rw [Cert.ReferenceIdeal.Read.val_main_v61_apply, Cert.ReferenceIdeal.Read.val_main_v60_apply, Cert.ReferenceIdeal.Read.val_main_v59_apply]
  have hb : shapeCast S1x25 x5 shapeCasts_S25_S1x25 (Cert.ReferenceIdeal.Read.idx_main_v60 i)
      = x5 (Cert.ReferenceIdeal.Read.idx_main_v59 (Cert.ReferenceIdeal.Read.idx_main_v60 i)) :=
    shapeCast_apply x5 shapeCasts_S25_S1x25 (Cert.ReferenceIdeal.Read.idx_main_v60 i) _ (by
      rw [Shape.rowMajor_val_two, Shape.rowMajor_val_one]; show (i 1).val = 0 * 25 + (i 1).val; omega)
  rw [hb]
  rfl

end Cert.KernelIdeal.Bridge

end
-- ==== Proof.Stretches.lean ====
/-
  The three stretches of host operations between the kernel's regions, each read at the buffers later
  segments use, from ANY starting contents W of the buffers.

  The kernel's host operations are, line for line, the reference's: the edge list with the self loops
  appended (source and destination), the degree vector by scatter-add of ones, its reciprocal square root,
  the per-edge norm as the product of the two gathered values, and per layer the gather of the source rows,
  the scaling by the norm and the scatter-add into the destination rows.  So what a stretch leaves in a
  buffer is the reference's stage for the same operation, applied to what the stretch found.
-/
import proofs.«121649_j12189117186553_1_alg».proof.Proof.Gen.KernelIdeal.Frame
import proofs.«121649_j12189117186553_1_alg».proof.Proof.Gen.ReferenceIdeal.Read
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo

variable (W : Valuation τ sig (Elt Ideal))

/-! ## The first stretch: the edge lists and the norm -/

/-- The source list with the self loops appended. -/
theorem s0_src : StableHlo.after (hostOps0 (F := Ideal)) W (Proc.devRef .tc main_v3)
    = Cert.ReferenceIdeal.Read.val_main_v3 (F := Ideal) (W (Proc.devRef .tc main_arg1)) := by
  dsimp only [hostOps0]; after_results_simp <;> rfl

/-- The destination list with the self loops appended. -/
theorem s0_dst : StableHlo.after (hostOps0 (F := Ideal)) W (Proc.devRef .tc main_v6)
    = Cert.ReferenceIdeal.Read.val_main_v6 (F := Ideal) (W (Proc.devRef .tc main_arg1)) := by
  dsimp only [hostOps0]; after_results_simp <;> rfl

/-- The per-edge norm: the product of the reciprocal square roots of the two end points' degrees. -/
theorem s0_norm : StableHlo.after (hostOps0 (F := Ideal)) W (Proc.devRef .tc main_v26)
    = Cert.ReferenceIdeal.Read.val_main_v26 (F := Ideal) (W (Proc.devRef .tc main_arg1)) := by
  dsimp only [hostOps0]; after_results_simp <;> rfl

theorem s0_arg0 : StableHlo.after (hostOps0 (F := Ideal)) W (Proc.devRef .tc main_arg0) = W (Proc.devRef .tc main_arg0) := by
  dsimp only [hostOps0]; after_results_simp <;> rfl
theorem s0_arg2 : StableHlo.after (hostOps0 (F := Ideal)) W (Proc.devRef .tc main_arg2) = W (Proc.devRef .tc main_arg2) := by
  dsimp only [hostOps0]; after_results_simp <;> rfl
theorem s0_arg3 : StableHlo.after (hostOps0 (F := Ideal)) W (Proc.devRef .tc main_arg3) = W (Proc.devRef .tc main_arg3) := by
  dsimp only [hostOps0]; after_results_simp <;> rfl
theorem s0_arg4 : StableHlo.after (hostOps0 (F := Ideal)) W (Proc.devRef .tc main_arg4) = W (Proc.devRef .tc main_arg4) := by
  dsimp only [hostOps0]; after_results_simp <;> rfl
theorem s0_arg5 : StableHlo.after (hostOps0 (F := Ideal)) W (Proc.devRef .tc main_arg5) = W (Proc.devRef .tc main_arg5) := by
  dsimp only [hostOps0]; after_results_simp <;> rfl

/-! ## The second stretch: the first layer's aggregation, and the bias as a row -/

set_option maxHeartbeats 2000000 in
/-- The first layer's aggregation of what the stretch finds in the product's buffer, when the edge lists and
    the norm are the reference's. -/
theorem s1_agg (x0 : (⟨S100000x50, .f32⟩ : BufTy).Contents (Elt Ideal)) (x1 : (⟨S2x6400000, .i32⟩ : BufTy).Contents (Elt Ideal))
    (x2 : (⟨S50x30, .f32⟩ : BufTy).Contents (Elt Ideal))
    (h3 : W (Proc.devRef .tc main_v3) = Cert.ReferenceIdeal.Read.val_main_v3 (F := Ideal) x1)
    (h6 : W (Proc.devRef .tc main_v6) = Cert.ReferenceIdeal.Read.val_main_v6 (F := Ideal) x1)
    (h26 : W (Proc.devRef .tc main_v26) = Cert.ReferenceIdeal.Read.val_main_v26 (F := Ideal) x1)
    (h27 : W (Proc.devRef .tc main_v27) = Cert.ReferenceIdeal.Read.val_main_v27 (F := Ideal) x0 x2) :
    StableHlo.after (hostOps1 (F := Ideal)) W (Proc.devRef .tc main_v40) = Cert.ReferenceIdeal.Read.val_main_v40 (F := Ideal) x0 x1 x2 := by
  dsimp only [hostOps1]; after_results_simp
  rw [h3, h6, h26, h27]
  rfl

/-- The first bias as a one-row matrix. -/
theorem s1_bias : StableHlo.after (hostOps1 (F := Ideal)) W (Proc.devRef .tc main_v41)
    = shapeCast S1x30 (W (Proc.devRef .tc main_arg3)) shapeCasts_S30_S1x30 := by
  dsimp only [hostOps1]; after_results <;> rfl

theorem s1_v3 : StableHlo.after (hostOps1 (F := Ideal)) W (Proc.devRef .tc main_v3) = W (Proc.devRef .tc main_v3) := by
  dsimp only [hostOps1]; after_results <;> rfl
theorem s1_v6 : StableHlo.after (hostOps1 (F := Ideal)) W (Proc.devRef .tc main_v6) = W (Proc.devRef .tc main_v6) := by
  dsimp only [hostOps1]; after_results <;> rfl
theorem s1_v26 : StableHlo.after (hostOps1 (F := Ideal)) W (Proc.devRef .tc main_v26) = W (Proc.devRef .tc main_v26) := by
  dsimp only [hostOps1]; after_results <;> rfl
theorem s1_arg4 : StableHlo.after (hostOps1 (F := Ideal)) W (Proc.devRef .tc main_arg4) = W (Proc.devRef .tc main_arg4) := by
  dsimp only [hostOps1]; after_results <;> rfl
theorem s1_arg5 : StableHlo.after (hostOps1 (F := Ideal)) W (Proc.devRef .tc main_arg5) = W (Proc.devRef .tc main_arg5) := by
  dsimp only [hostOps1]; after_results <;> rfl

/-! ## The third stretch: the second layer's aggregation, and the bias as a row -/

set_option maxHeartbeats 2000000 in
/-- The second layer's aggregation of what the stretch finds in the second product's buffer, when the edge
    lists and the norm are the reference's. -/
theorem s2_agg (x0 : (⟨S100000x50, .f32⟩ : BufTy).Contents (Elt Ideal)) (x1 : (⟨S2x6400000, .i32⟩ : BufTy).Contents (Elt Ideal))
    (x2 : (⟨S50x30, .f32⟩ : BufTy).Contents (Elt Ideal)) (x3 : (⟨S30, .f32⟩ : BufTy).Contents (Elt Ideal))
    (x4 : (⟨S30x25, .f32⟩ : BufTy).Contents (Elt Ideal))
    (h3 : W (Proc.devRef .tc main_v3) = Cert.ReferenceIdeal.Read.val_main_v3 (F := Ideal) x1)
    (h6 : W (Proc.devRef .tc main_v6) = Cert.ReferenceIdeal.Read.val_main_v6 (F := Ideal) x1)
    (h26 : W (Proc.devRef .tc main_v26) = Cert.ReferenceIdeal.Read.val_main_v26 (F := Ideal) x1)
    (h42 : W (Proc.devRef .tc main_v42) = Cert.ReferenceIdeal.Read.val_main_v45 (F := Ideal) x0 x1 x2 x3 x4) :
    StableHlo.after (hostOps2 (F := Ideal)) W (Proc.devRef .tc main_v55) = Cert.ReferenceIdeal.Read.val_main_v58 (F := Ideal) x0 x1 x2 x3 x4 := by
  dsimp only [hostOps2]; after_results_simp
  rw [h3, h6, h26, h42]
  rfl

/-- The second bias as a one-row matrix. -/
theorem s2_bias : StableHlo.after (hostOps2 (F := Ideal)) W (Proc.devRef .tc main_v56)
    = shapeCast S1x25 (W (Proc.devRef .tc main_arg5)) shapeCasts_S25_S1x25 := by
  dsimp only [hostOps2]; after_results <;> rfl

end Cert.KernelIdeal.Stretches

end
-- ==== Proof.Fold.lean ====
/-
  The buffer contents at the kernel's six segment boundaries, read at the buffers that matter, as the
  reference's stages of the launch arguments.

  Boundary 1 (after the first stretch): the edge lists and the norm.  Boundary 2 (after the first region):
  also the first product x · W1.  Boundary 3 (after the second stretch): the first layer's aggregation and the
  first bias as a row.  Boundary 4 (after the second region): relu(agg₁ + b₁) · W2.  Boundary 5 (after the
  third stretch): the second layer's aggregation and the second bias as a row.  Boundary 6 (after the third
  region): agg₂ + b₂, the result.  A region changes only its own arrays and a stretch only the buffers its
  operations write, so everything else is carried from the boundary before.
-/
import proofs.«121649_j12189117186553_1_alg».proof.Proof.Dense0
import proofs.«121649_j12189117186553_1_alg».proof.Proof.Dense1
import proofs.«121649_j12189117186553_1_alg».proof.Proof.Bias2
import proofs.«121649_j12189117186553_1_alg».proof.Proof.Bridge
import proofs.«121649_j12189117186553_1_alg».proof.Proof.Stretches

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch arguments on core c. -/
abbrev a0 : (⟨S100000x50, .f32⟩ : BufTy).Contents (Elt Ideal) := m ((c : Thread nD τ).loc main_arg0)
abbrev a1 : (⟨S2x6400000, .i32⟩ : BufTy).Contents (Elt Ideal) := m ((c : Thread nD τ).loc main_arg1)
abbrev a2 : (⟨S50x30, .f32⟩ : BufTy).Contents (Elt Ideal) := m ((c : Thread nD τ).loc main_arg2)
abbrev a3 : (⟨S30, .f32⟩ : BufTy).Contents (Elt Ideal) := m ((c : Thread nD τ).loc main_arg3)
abbrev a4 : (⟨S30x25, .f32⟩ : BufTy).Contents (Elt Ideal) := m ((c : Thread nD τ).loc main_arg4)
abbrev a5 : (⟨S25, .f32⟩ : BufTy).Contents (Elt Ideal) := m ((c : Thread nD τ).loc main_arg5)

/-! ## Boundary 1 -/

theorem w1_src : W1 m ρ c (Proc.devRef .tc main_v3) = Cert.ReferenceIdeal.Read.val_main_v3 (F := Ideal) (a1 m c) := Stretches.s0_src (W0 m ρ c)
theorem w1_dst : W1 m ρ c (Proc.devRef .tc main_v6) = Cert.ReferenceIdeal.Read.val_main_v6 (F := Ideal) (a1 m c) := Stretches.s0_dst (W0 m ρ c)
theorem w1_norm : W1 m ρ c (Proc.devRef .tc main_v26) = Cert.ReferenceIdeal.Read.val_main_v26 (F := Ideal) (a1 m c) := Stretches.s0_norm (W0 m ρ c)
theorem w1_arg0 : W1 m ρ c (Proc.devRef .tc main_arg0) = a0 m c := Stretches.s0_arg0 (W0 m ρ c)
theorem w1_arg2 : W1 m ρ c (Proc.devRef .tc main_arg2) = a2 m c := Stretches.s0_arg2 (W0 m ρ c)
theorem w1_arg3 : W1 m ρ c (Proc.devRef .tc main_arg3) = a3 m c := Stretches.s0_arg3 (W0 m ρ c)
theorem w1_arg4 : W1 m ρ c (Proc.devRef .tc main_arg4) = a4 m c := Stretches.s0_arg4 (W0 m ρ c)
theorem w1_arg5 : W1 m ρ c (Proc.devRef .tc main_arg5) = a5 m c := Stretches.s0_arg5 (W0 m ρ c)

/-! ## Boundary 2 -/

theorem w2_src : W2 m ρ c (Proc.devRef .tc main_v3) = Cert.ReferenceIdeal.Read.val_main_v3 (F := Ideal) (a1 m c) :=
  (W2_of_ne m ρ c main_v3 (by decide)).trans (w1_src m ρ c)
theorem w2_dst : W2 m ρ c (Proc.devRef .tc main_v6) = Cert.ReferenceIdeal.Read.val_main_v6 (F := Ideal) (a1 m c) :=
  (W2_of_ne m ρ c main_v6 (by decide)).trans (w1_dst m ρ c)
theorem w2_norm : W2 m ρ c (Proc.devRef .tc main_v26) = Cert.ReferenceIdeal.Read.val_main_v26 (F := Ideal) (a1 m c) :=
  (W2_of_ne m ρ c main_v26 (by decide)).trans (w1_norm m ρ c)
theorem w2_arg3 : W2 m ρ c (Proc.devRef .tc main_arg3) = a3 m c := (W2_of_ne m ρ c main_arg3 (by decide)).trans (w1_arg3 m ρ c)
theorem w2_arg4 : W2 m ρ c (Proc.devRef .tc main_arg4) = a4 m c := (W2_of_ne m ρ c main_arg4 (by decide)).trans (w1_arg4 m ρ c)
theorem w2_arg5 : W2 m ρ c (Proc.devRef .tc main_arg5) = a5 m c := (W2_of_ne m ρ c main_arg5 (by decide)).trans (w1_arg5 m ρ c)

/-- The first product. -/
theorem w2_prod : W2 m ρ c (Proc.devRef .tc main_v27) = Cert.ReferenceIdeal.Read.val_main_v27 (F := Ideal) (a0 m c) (a2 m c) := by
  refine (W2_arr m ρ c 2).trans ((Dense0.final (V1 m ρ) c).trans ?_)
  rw [show V1 m ρ c main_arg0 = a0 m c from w1_arg0 m ρ c, show V1 m ρ c main_arg2 = a2 m c from w1_arg2 m ρ c]

/-! ## Boundary 3 -/

theorem w3_agg : W3 m ρ c (Proc.devRef .tc main_v40) = Cert.ReferenceIdeal.Read.val_main_v40 (F := Ideal) (a0 m c) (a1 m c) (a2 m c) :=
  Stretches.s1_agg (W2 m ρ c) _ _ _ (w2_src m ρ c) (w2_dst m ρ c) (w2_norm m ρ c) (w2_prod m ρ c)
theorem w3_bias : W3 m ρ c (Proc.devRef .tc main_v41) = shapeCast S1x30 (a3 m c) shapeCasts_S30_S1x30 :=
  (Stretches.s1_bias (W2 m ρ c)).trans (by rw [w2_arg3 m ρ c])
theorem w3_src : W3 m ρ c (Proc.devRef .tc main_v3) = Cert.ReferenceIdeal.Read.val_main_v3 (F := Ideal) (a1 m c) :=
  (Stretches.s1_v3 (W2 m ρ c)).trans (w2_src m ρ c)
theorem w3_dst : W3 m ρ c (Proc.devRef .tc main_v6) = Cert.ReferenceIdeal.Read.val_main_v6 (F := Ideal) (a1 m c) :=
  (Stretches.s1_v6 (W2 m ρ c)).trans (w2_dst m ρ c)
theorem w3_norm : W3 m ρ c (Proc.devRef .tc main_v26) = Cert.ReferenceIdeal.Read.val_main_v26 (F := Ideal) (a1 m c) :=
  (Stretches.s1_v26 (W2 m ρ c)).trans (w2_norm m ρ c)
theorem w3_arg4 : W3 m ρ c (Proc.devRef .tc main_arg4) = a4 m c := (Stretches.s1_arg4 (W2 m ρ c)).trans (w2_arg4 m ρ c)
theorem w3_arg5 : W3 m ρ c (Proc.devRef .tc main_arg5) = a5 m c := (Stretches.s1_arg5 (W2 m ρ c)).trans (w2_arg5 m ρ c)

/-! ## Boundary 4 -/

theorem w4_src : W4 m ρ c (Proc.devRef .tc main_v3) = Cert.ReferenceIdeal.Read.val_main_v3 (F := Ideal) (a1 m c) :=
  (W4_of_ne m ρ c main_v3 (by decide)).trans (w3_src m ρ c)
theorem w4_dst : W4 m ρ c (Proc.devRef .tc main_v6) = Cert.ReferenceIdeal.Read.val_main_v6 (F := Ideal) (a1 m c) :=
  (W4_of_ne m ρ c main_v6 (by decide)).trans (w3_dst m ρ c)
theorem w4_norm : W4 m ρ c (Proc.devRef .tc main_v26) = Cert.ReferenceIdeal.Read.val_main_v26 (F := Ideal) (a1 m c) :=
  (W4_of_ne m ρ c main_v26 (by decide)).trans (w3_norm m ρ c)
theorem w4_arg5 : W4 m ρ c (Proc.devRef .tc main_arg5) = a5 m c := (W4_of_ne m ρ c main_arg5 (by decide)).trans (w3_arg5 m ρ c)

/-- The second product, of the clamped, biased first aggregation. -/
theorem w4_prod : W4 m ρ c (Proc.devRef .tc main_v42)
    = Cert.ReferenceIdeal.Read.val_main_v45 (F := Ideal) (a0 m c) (a1 m c) (a2 m c) (a3 m c) (a4 m c) := by
  refine (W4_arr m ρ c 3).trans ((Dense1.final (V3 m ρ) c).trans ?_)
  rw [show V3 m ρ c main_v40 = _ from w3_agg m ρ c, show V3 m ρ c main_v41 = _ from w3_bias m ρ c,
    show V3 m ρ c main_arg4 = a4 m c from w3_arg4 m ρ c]
  exact Bridge.reluDense_eq _ _ _ _ _

/-! ## Boundary 5 -/

theorem w5_agg : W5 m ρ c (Proc.devRef .tc main_v55)
    = Cert.ReferenceIdeal.Read.val_main_v58 (F := Ideal) (a0 m c) (a1 m c) (a2 m c) (a3 m c) (a4 m c) :=
  Stretches.s2_agg (W4 m ρ c) _ _ _ _ _ (w4_src m ρ c) (w4_dst m ρ c) (w4_norm m ρ c) (w4_prod m ρ c)
theorem w5_bias : W5 m ρ c (Proc.devRef .tc main_v56) = shapeCast S1x25 (a5 m c) shapeCasts_S25_S1x25 :=
  (Stretches.s2_bias (W4 m ρ c)).trans (by rw [w4_arg5 m ρ c])

/-! ## Boundary 6: the result -/

/-- The kernel's result buffer ends at the reference's result stage of the launch arguments. -/
theorem result : W6 m ρ c (Proc.devRef .tc main_v57)
    = Cert.ReferenceIdeal.Read.val_main_v61 (F := Ideal) (a0 m c) (a1 m c) (a2 m c) (a3 m c) (a4 m c) (a5 m c) := by
  refine (W6_arr m ρ c 2).trans ((Bias2.final (V5 m ρ) c).trans ?_)
  rw [show V5 m ρ c main_v55 = _ from w5_agg m ρ c, show V5 m ρ c main_v56 = _ from w5_bias m ρ c]
  exact Bridge.addRow_eq _ _ _ _ _ _

end Cert.KernelIdeal.Fold

end
-- ==== Proof.lean ====
/-
  A two-layer graph convolution on 100000 nodes and 6400000 directed edges plus one self loop per node:

      out = Â · relu(Â · (x · W1) + b1) · W2 + b2,     Â(d, s) = Σ_{edges s → d} deg(s)^(-1/2) · deg(d)^(-1/2),

  with deg the in-degree counted over the edge list with the self loops.  The kernel computes the two dense
  products and the two bias additions on the TensorCore, in row blocks of 5000 nodes (x · W1; then
  relu(· + b1) · W2 fused; then · + b2), and everything between them — the degree vector, its reciprocal
  square root, the per-edge norm, the gather of source rows, the scaling, the scatter-add into destination
  rows — as host operations.  The reference computes all of it as host operations.

  On the extended reals the two are one function of the arguments, operation by operation: the host
  operations between the regions are the reference's own, line for line; a row block of a dense product is
  the rows of the whole product (an entry is the sum over the contracted index of the products, and rounding
  the operands to bf16 is the identity); a bias laid out as a one-row matrix and spread over a block's rows
  reads the same entry as the reference's bias spread over all rows; the maximum with zero is the same
  maximum.  No law is used that fails at an infinity, so the inputs' finiteness is never opened.

  The kernel's run with its result named is KernelRun; the three regions' whole-array values are Dense0,
  Dense1 and Bias2; the stretches of host operations are Stretches; Bridge meets the fused regions' functions
  with the reference's stages; Fold carries the contents through the six segment boundaries.
-/
import proofs.«121649_j12189117186553_1_alg».proof.Defs
import proofs.«121649_j12189117186553_1_alg».proof.Proof.Gen.Kernel
import proofs.«121649_j12189117186553_1_alg».proof.Proof.Gen.Kernel.Frame
import proofs.«121649_j12189117186553_1_alg».proof.Proof.Gen.KernelIdeal
import proofs.«121649_j12189117186553_1_alg».proof.Proof.Gen.KernelIdeal.Frame
import proofs.«121649_j12189117186553_1_alg».proof.Proof.Gen.ReferenceIdeal
import proofs.«121649_j12189117186553_1_alg».proof.Proof.Gen.ReferenceIdeal.Run
import proofs.«121649_j12189117186553_1_alg».proof.Proof.Gen.ReferenceIdeal.Read
import proofs.«121649_j12189117186553_1_alg».proof.Proof.Gen.Pre_finite_inputs
import proofs.«121649_j12189117186553_1_alg».proof.Proof.KernelRun
import proofs.«121649_j12189117186553_1_alg».proof.Proof.Fold
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result at the reference's last stage of the arguments: the kernel's by the
    fold through its six segment boundaries, the reference's by its run. -/
theorem algebraic : Cert.algebraic_KernelIdeal_ReferenceIdeal := by
  intro m ρ m' ρ' _ hagree
  refine ⟨fun c => Cert.ReferenceIdeal.Read.val_main_v61 (F := Ideal) (Cert.KernelIdeal.Fold.a0 m c) (Cert.KernelIdeal.Fold.a1 m c)
    (Cert.KernelIdeal.Fold.a2 m c) (Cert.KernelIdeal.Fold.a3 m c) (Cert.KernelIdeal.Fold.a4 m c) (Cert.KernelIdeal.Fold.a5 m c), ?_, ?_⟩
  · exact (θ_run Cert.KernelIdeal.defs _ _).mono
      (fun r h c => ⟨(h c).1.trans (Cert.KernelIdeal.Fold.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
